-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x16000 : Shape := ⟨3, ![8, 512, 16000]⟩
abbrev S_ : Shape := ⟨0, ![]⟩

class Facts : Prop where
  bcast_S_S8x512x16000 : S_.BroadcastsInDim S8x512x16000 (![] : Fin 0 → Fin S8x512x16000.rank)
  reducesTo_S8x512x16000_S_d0_1_2 : S8x512x16000.ReducesTo [0, 1, 2] S_
  h_S_ : 0 < S_.numel

variable [Facts]

def fn {F : FTy → Type} [FloatOps F] (main_arg0 : FVec F S8x512x16000 .f32) : IVec S_ 1 :=
  let main_v0 : FVec F S8x512x16000 .f32 := Host.absf main_arg0
  let main_cst : FVec F S_ .f32 := constant S_ .f32 0x7F800000#32
  let main_v1 : FVec F S8x512x16000 .f32 := broadcastInDim S8x512x16000 ![] bcast_S_S8x512x16000 main_cst
  let main_v2 : IVec S8x512x16000 1 := cmpf .olt main_v0 main_v1
  let main_c : IVec S_ 1 := constantI S_ 1 1#1
  let main_v3 : IVec S_ 1 := (fun x v => Host.reduce IntOp.andi x v reducesTo_S8x512x16000_S_d0_1_2 h_S_) main_v2 main_c
  main_v3
-- ==== Kernel.lean ====
abbrev S8x512x16000 : Shape := ⟨3, ![8, 512, 16000]⟩
abbrev S8x4x128x16000 : Shape := ⟨4, ![8, 4, 128, 16000]⟩
abbrev S8x128x16000 : Shape := ⟨3, ![8, 128, 16000]⟩
abbrev S1x4x128x3200 : Shape := ⟨4, ![1, 4, 128, 3200]⟩
abbrev S1x128x3200 : Shape := ⟨3, ![1, 128, 3200]⟩
abbrev S3x128x128 : Shape := ⟨3, ![3, 128, 128]⟩
abbrev S1x1x128x3200 : Shape := ⟨4, ![1, 1, 128, 3200]⟩
abbrev S128x3200 : Shape := ⟨2, ![128, 3200]⟩
abbrev S1x128x1 : Shape := ⟨3, ![1, 128, 1]⟩
abbrev S128x1 : Shape := ⟨2, ![128, 1]⟩
abbrev S128x3199 : Shape := ⟨2, ![128, 3199]⟩
abbrev S1x1x128x3 : Shape := ⟨4, ![1, 1, 128, 3]⟩
abbrev S128x3 : Shape := ⟨2, ![128, 3]⟩
abbrev S1x128x3 : Shape := ⟨3, ![1, 128, 3]⟩
abbrev S1x128x2 : Shape := ⟨3, ![1, 128, 2]⟩
abbrev S128x2 : Shape := ⟨2, ![128, 2]⟩
abbrev S128x3198 : Shape := ⟨2, ![128, 3198]⟩
abbrev S128x3197 : Shape := ⟨2, ![128, 3197]⟩

abbrev nBuf : Space → Nat
  | .hbm => 3
  | .vmem => 5
  | .smem => 0
  | _ => 0

abbrev bufTy : (tb : Table) → Fin (tcTables nBuf tb) → BufTy
  | .hbm, ⟨0, _⟩ => ⟨S8x512x16000, .f32⟩
  | .hbm, ⟨1, _⟩ => ⟨S8x4x128x16000, .f32⟩
  | .hbm, ⟨2, _⟩ => ⟨S8x128x16000, .f32⟩
  | .local _ .vmem, ⟨0, _⟩ => ⟨S1x4x128x3200, .f32⟩
  | .local _ .vmem, ⟨1, _⟩ => ⟨S1x4x128x3200, .f32⟩
  | .local _ .vmem, ⟨2, _⟩ => ⟨S1x128x3200, .f32⟩
  | .local _ .vmem, ⟨3, _⟩ => ⟨S1x128x3200, .f32⟩
  | .local _ .vmem, ⟨4, _⟩ => ⟨S3x128x128, .f32⟩
  | _, _ => ⟨S8x512x16000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 5], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4x128x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S8x512x16000_S8x4x128x16000 : S8x512x16000.ShapeCasts S8x4x128x16000
  inb_S3x128x128_S3x128x128_0_0_0 : ∀ a, (![0, 0, 0] : Fin 3 → Nat) a + S3x128x128.size a ≤ S3x128x128.size a
  h_S3x128x128 : 0 < S3x128x128.numel
  shapeCasts_S3x128x128_S3x128x128 : S3x128x128.ShapeCasts S3x128x128
  inb_S1x4x128x3200_S1x1x128x3200_0_0_0_0 : ∀ a, (![0, 0, 0, 0] : Fin 4 → Nat) a + S1x1x128x3200.size a ≤ S1x4x128x3200.size a
  h_S1x1x128x3200 : 0 < S1x1x128x3200.numel
  shapeCasts_S1x1x128x3200_S128x3200 : S1x1x128x3200.ShapeCasts S128x3200
  inb_S1x4x128x3200_S1x1x128x3200_0_1_0_0 : ∀ a, (![0, 1, 0, 0] : Fin 4 → Nat) a + S1x1x128x3200.size a ≤ S1x4x128x3200.size a
  inb_S3x128x128_S1x128x1_0_0_127 : ∀ a, (![0, 0, 127] : Fin 3 → Nat) a + S1x128x1.size a ≤ S3x128x128.size a
  h_S1x128x1 : 0 < S1x128x1.numel
  shapeCasts_S1x128x1_S128x1 : S1x128x1.ShapeCasts S128x1
  slices_S128x3200_o0_0_S128x3199 : S128x3200.Slices ![0, 0] S128x3199
  concatenates_S128x1_S128x3199_S128x3200_d1 : Shape.Concatenates [S128x1, S128x3199] S128x3200 1
  inb_S1x4x128x3200_S1x1x128x3_0_1_0_3197 : ∀ a, (![0, 1, 0, 3197] : Fin 4 → Nat) a + S1x1x128x3.size a ≤ S1x4x128x3200.size a
  h_S1x1x128x3 : 0 < S1x1x128x3.numel
  shapeCasts_S1x1x128x3_S128x3 : S1x1x128x3.ShapeCasts S128x3
  inb_S3x128x128_S1x128x3_0_0_125 : ∀ a, (![0, 0, 125] : Fin 3 → Nat) a + S1x128x3.size a ≤ S3x128x128.size a
  h_S1x128x3 : 0 < S1x128x3.numel
  shapeCasts_S1x128x3_S128x3 : S1x128x3.ShapeCasts S128x3
  shapeCasts_S128x3_S1x128x3 : S128x3.ShapeCasts S1x128x3
  inb_S1x4x128x3200_S1x1x128x3200_0_2_0_0 : ∀ a, (![0, 2, 0, 0] : Fin 4 → Nat) a + S1x1x128x3200.size a ≤ S1x4x128x3200.size a
  inb_S3x128x128_S1x128x2_1_0_126 : ∀ a, (![1, 0, 126] : Fin 3 → Nat) a + S1x128x2.size a ≤ S3x128x128.size a
  h_S1x128x2 : 0 < S1x128x2.numel
  shapeCasts_S1x128x2_S128x2 : S1x128x2.ShapeCasts S128x2
  slices_S128x3200_o0_0_S128x3198 : S128x3200.Slices ![0, 0] S128x3198
  concatenates_S128x2_S128x3198_S128x3200_d1 : Shape.Concatenates [S128x2, S128x3198] S128x3200 1
  inb_S1x4x128x3200_S1x1x128x3_0_2_0_3197 : ∀ a, (![0, 2, 0, 3197] : Fin 4 → Nat) a + S1x1x128x3.size a ≤ S1x4x128x3200.size a
  inb_S3x128x128_S1x128x3_1_0_125 : ∀ a, (![1, 0, 125] : Fin 3 → Nat) a + S1x128x3.size a ≤ S3x128x128.size a
  inb_S1x4x128x3200_S1x1x128x3200_0_3_0_0 : ∀ a, (![0, 3, 0, 0] : Fin 4 → Nat) a + S1x1x128x3200.size a ≤ S1x4x128x3200.size a
  inb_S3x128x128_S1x128x3_2_0_125 : ∀ a, (![2, 0, 125] : Fin 3 → Nat) a + S1x128x3.size a ≤ S3x128x128.size a
  slices_S128x3200_o0_0_S128x3197 : S128x3200.Slices ![0, 0] S128x3197
  concatenates_S128x3_S128x3197_S128x3200_d1 : Shape.Concatenates [S128x3, S128x3197] S128x3200 1
  inb_S1x4x128x3200_S1x1x128x3_0_3_0_3197 : ∀ a, (![0, 3, 0, 3197] : Fin 4 → Nat) a + S1x1x128x3.size a ≤ S1x4x128x3200.size a
  inb_S1x128x3200_S1x128x3200_0_0_0 : ∀ a, (![0, 0, 0] : Fin 3 → Nat) a + S1x128x3200.size a ≤ S1x128x3200.size a
  h_S1x128x3200 : 0 < S1x128x3200.numel
  shapeCasts_S1x128x3200_S128x3200 : S1x128x3200.ShapeCasts S128x3200
  shapeCasts_S128x3200_S1x128x3200 : S128x3200.ShapeCasts S1x128x3200
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x128x3200.size a ≤ S8x4x128x16000.size a
  hwx0_0 : ∀ i : grid0.Coords, EltTy.bits .f32 = 32 ∨ (Rect.block (s := S8x4x128x16000) S1x4x128x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x3200.size a ≤ S8x128x16000.size a
  hwx0_1 : ∀ i : grid0.Coords, EltTy.bits .f32 = 32 ∨ (Rect.block (s := S8x128x16000) S1x128x3200.size (cc0_transform_1 i) (hinb0_1 i)).WholeWords (EltTy.packing .f32)

variable [Facts₀]

abbrev win0_0 : Pipeline.Window sig grid0 :=
  Pipeline.Window.ofSpec (Memref.whole main_v0) S1x4x128x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x3200.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x512x16000 : Shape := ⟨3, ![8, 512, 16000]⟩
abbrev S8x4x128x16000 : Shape := ⟨4, ![8, 4, 128, 16000]⟩
abbrev S8x1x128x16000 : Shape := ⟨4, ![8, 1, 128, 16000]⟩
abbrev S8x128x16000 : Shape := ⟨3, ![8, 128, 16000]⟩
abbrev S_ : Shape := ⟨0, ![]⟩
abbrev S8x128x16001 : Shape := ⟨3, ![8, 128, 16001]⟩
abbrev S8x128x16002 : Shape := ⟨3, ![8, 128, 16002]⟩
abbrev S8x128x16003 : Shape := ⟨3, ![8, 128, 16003]⟩

abbrev nBuf : Space → Nat
  | .hbm => 25
  | .vmem => 0
  | .smem => 0
  | _ => 0

abbrev bufTy : (tb : Table) → Fin (tcTables nBuf tb) → BufTy
  | .hbm, ⟨0, _⟩ => ⟨S8x512x16000, .f32⟩
  | .hbm, ⟨1, _⟩ => ⟨S8x4x128x16000, .f32⟩
  | .hbm, ⟨2, _⟩ => ⟨S8x1x128x16000, .f32⟩
  | .hbm, ⟨3, _⟩ => ⟨S8x128x16000, .f32⟩
  | .hbm, ⟨4, _⟩ => ⟨S8x1x128x16000, .f32⟩
  | .hbm, ⟨5, _⟩ => ⟨S8x128x16000, .f32⟩
  | .hbm, ⟨6, _⟩ => ⟨S_, .i32⟩
  | .hbm, ⟨7, _⟩ => ⟨S_, .f32⟩
  | .hbm, ⟨8, _⟩ => ⟨S8x128x16001, .f32⟩
  | .hbm, ⟨9, _⟩ => ⟨S8x128x16000, .f32⟩
  | .hbm, ⟨10, _⟩ => ⟨S8x128x16000, .f32⟩
  | .hbm, ⟨11, _⟩ => ⟨S8x1x128x16000, .f32⟩
  | .hbm, ⟨12, _⟩ => ⟨S8x128x16000, .f32⟩
  | .hbm, ⟨13, _⟩ => ⟨S_, .i32⟩
  | .hbm, ⟨14, _⟩ => ⟨S_, .f32⟩
  | .hbm, ⟨15, _⟩ => ⟨S8x128x16002, .f32⟩
  | .hbm, ⟨16, _⟩ => ⟨S8x128x16000, .f32⟩
  | .hbm, ⟨17, _⟩ => ⟨S8x128x16000, .f32⟩
  | .hbm, ⟨18, _⟩ => ⟨S8x1x128x16000, .f32⟩
  | .hbm, ⟨19, _⟩ => ⟨S8x128x16000, .f32⟩
  | .hbm, ⟨20, _⟩ => ⟨S_, .i32⟩
  | .hbm, ⟨21, _⟩ => ⟨S_, .f32⟩
  | .hbm, ⟨22, _⟩ => ⟨S8x128x16003, .f32⟩
  | .hbm, ⟨23, _⟩ => ⟨S8x128x16000, .f32⟩
  | .hbm, ⟨24, _⟩ => ⟨S8x128x16000, .f32⟩
  | _, _ => ⟨S8x512x16000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_call0_v0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_call1_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_call2_v0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  shapeCasts_S8x512x16000_S8x4x128x16000 : S8x512x16000.ShapeCasts S8x4x128x16000
  slices_S8x4x128x16000_S8x1x128x16000_0_0_0_0 : S8x4x128x16000.Slices ![0, 0, 0, 0] S8x1x128x16000
  shapeCasts_S8x1x128x16000_S8x128x16000 : S8x1x128x16000.ShapeCasts S8x128x16000
  slices_S8x4x128x16000_S8x1x128x16000_0_1_0_0 : S8x4x128x16000.Slices ![0, 1, 0, 0] S8x1x128x16000
  pads_S8x128x16000_S8x128x16001_000_000_100 : S8x128x16000.Pads (![0, 0, 1] : Fin 3 → Nat) ![0, 0, 0] ![0, 0, 0] S8x128x16001
  h_S_ : 0 < S_.numel
  slices_S8x128x16001_S8x128x16000_0_0_0 : S8x128x16001.Slices ![0, 0, 0] S8x128x16000
  slices_S8x4x128x16000_S8x1x128x16000_0_2_0_0 : S8x4x128x16000.Slices ![0, 2, 0, 0] S8x1x128x16000
  pads_S8x128x16000_S8x128x16002_000_000_200 : S8x128x16000.Pads (![0, 0, 2] : Fin 3 → Nat) ![0, 0, 0] ![0, 0, 0] S8x128x16002
  slices_S8x128x16002_S8x128x16000_0_0_0 : S8x128x16002.Slices ![0, 0, 0] S8x128x16000
  slices_S8x4x128x16000_S8x1x128x16000_0_3_0_0 : S8x4x128x16000.Slices ![0, 3, 0, 0] S8x1x128x16000
  pads_S8x128x16000_S8x128x16003_000_000_300 : S8x128x16000.Pads (![0, 0, 3] : Fin 3 → Nat) ![0, 0, 0] ![0, 0, 0] S8x128x16003
  slices_S8x128x16003_S8x128x16000_0_0_0 : S8x128x16003.Slices ![0, 0, 0] S8x128x16000

variable [Facts₀]

class Facts : Prop extends Facts₀ where

variable [Facts]
-- ==== Proof.LibDelayLine.lean ====
/-
  A signal delayed along its last axis, in the two spellings a tiled kernel and an array program give it, read at an
  index; and one channel group of a four-axis array read at an index.

  * Host spelling: pad the last axis in front with `s` copies of a value, keep the first `T` entries. Entry `t` is the
    operand's entry `t - s` when `s ≤ t`, and the padding value before that.
  * Tile spelling: a tile of `W` lanes whose first `k` lanes are a carried vector of `k` lanes and whose remaining lanes
    are the first `W - k` lanes of a chunk. Lane `t` is the carried lane `t` when `t < k`, and the chunk's lane `t - k`
    otherwise.
  * Channel group `k` of a `[B, S, R, T]` array — the slice `[0:B, k:k+1, 0:R, 0:T]` viewed as `[B, R, T]` — at
    `(b, r, t)` is the array at `(b, k, r, t)`.

  Nothing here mentions a program.
-/
import Idealize.ShloMosaic.PureOps.Ideal
import Idealize.ShloMosaic.Lib.ValueIdx
import Idealize.ShloMosaic.Lib.Pipeline.Value
import Idealize.ShloMosaic.Lib.KernelVsHost

noncomputable section

namespace DelayLine

open Idealize.ShloMosaic Idealize.ShloMosaic.ValueIdx

variable {α : Type}

/-- Two rank-4 indices with equal coordinates are equal. -/
theorem ix4_ext {n0 n1 n2 n3 : Nat} {a a' : Fin n0} {b b' : Fin n1} {c c' : Fin n2} {d d' : Fin n3}
    (h0 : a.val = a'.val) (h1 : b.val = b'.val) (h2 : c.val = c'.val) (h3 : d.val = d'.val) :
    ix4 a b c d = ix4 a' b' c' d' := by
  obtain rfl := Fin.ext h0; obtain rfl := Fin.ext h1; obtain rfl := Fin.ext h2; obtain rfl := Fin.ext h3; rfl

/-- Two rank-3 indices with equal coordinates are equal. -/
theorem ix3_ext {n0 n1 n2 : Nat} {a a' : Fin n0} {b b' : Fin n1} {c c' : Fin n2}
    (h0 : a.val = a'.val) (h1 : b.val = b'.val) (h2 : c.val = c'.val) :
    ix3 a b c = ix3 a' b' c' := by
  obtain rfl := Fin.ext h0; obtain rfl := Fin.ext h1; obtain rfl := Fin.ext h2; rfl

/-- Channel group `k` of a `[B, S, R, T]` array, viewed as `[B, R, T]`, at `(b, r, t)` is the array at `(b, k, r, t)`. -/
theorem chunk_apply {B S R T : Nat} (k : Fin S) (off : Fin 4 → Nat) (hoff : off = ![0, k.val, 0, 0])
    (X : (⟨4, ![B, S, R, T]⟩ : Shape).Idx → α)
    (hs : (⟨4, ![B, S, R, T]⟩ : Shape).Slices off ⟨4, ![B, 1, R, T]⟩)
    (hc : (⟨4, ![B, 1, R, T]⟩ : Shape).ShapeCasts ⟨3, ![B, R, T]⟩)
    (b : Fin B) (r : Fin R) (t : Fin T) :
    shapeCast ⟨3, ![B, R, T]⟩ (extractStridedSlice ⟨4, ![B, 1, R, T]⟩ off X hs) hc (ix3 b r t) = X (ix4 b k r t) := by
  subst hoff
  refine (shapeCast_apply _ hc (ix3 b r t) (ix4 b (0 : Fin 1) r t) ?_).trans ?_
  · rw [Shape.rowMajor_val_four, Shape.rowMajor_val_three]
    show ((b.val * 1 + 0) * R + r.val) * T + t.val = (b.val * R + r.val) * T + t.val
    rw [Nat.mul_one, Nat.add_zero]
  · exact extractStridedSlice_apply _ X hs _ _ (fun a => match a with
      | ⟨0, _⟩ => by show b.val = 0 + b.val; omega
      | ⟨1, _⟩ => by show k.val = k.val + 0; omega
      | ⟨2, _⟩ => by show r.val = 0 + r.val; omega
      | ⟨3, _⟩ => by show t.val = 0 + t.val; omega)

/-- HOST SPELLING. A `[B, R, T]` array padded in front, on its last axis, with `s` copies of the padding value: entry
    `t` of the padded array is the operand's entry `t - s` from `s` on, and the padding value before. -/
theorem pad_front_apply {B R T M : Nat} (s : Nat) (lo : Fin 3 → Nat) (hlo : lo = ![0, 0, s])
    (x : (⟨3, ![B, R, T]⟩ : Shape).Idx → α) {u : Shape} (v : u.Idx → α)
    (hp : (⟨3, ![B, R, T]⟩ : Shape).Pads lo ![0, 0, 0] ![0, 0, 0] ⟨3, ![B, R, M]⟩) (hu : 0 < u.numel)
    (b : Fin B) (r : Fin R) (t : Fin M) :
    pad ⟨3, ![B, R, M]⟩ lo ![0, 0, 0] ![0, 0, 0] x v hp hu (ix3 b r t)
      = if h : s ≤ t.val ∧ t.val - s < T then x (ix3 b r ⟨t.val - s, h.2⟩) else v (Shape.Idx.first hu) := by
  subst hlo
  by_cases h : s ≤ t.val ∧ t.val - s < T
  · rw [dif_pos h]
    exact pad_apply_of_inside _ _ _ x v hp hu _ (ix3 b r (⟨t.val - s, h.2⟩ : Fin T)) (fun a => match a with
      | ⟨0, _⟩ => by show b.val = 0 + b.val * (0 + 1); omega
      | ⟨1, _⟩ => by show r.val = 0 + r.val * (0 + 1); omega
      | ⟨2, _⟩ => by show t.val = s + (t.val - s) * (0 + 1); have := h.1; omega)
  · rw [dif_neg h]
    exact pad_apply_of_not_inside _ _ _ x v hp hu _ (2 : Fin 3) (by
      intro hin
      have e1 : s ≤ t.val := hin.1
      have e2 : (t.val - s) / (0 + 1) < T := hin.2.2
      rw [Nat.zero_add, Nat.div_one] at e2
      exact h ⟨e1, e2⟩)

/-- TILE SPELLING. A tile of `W` lanes made of a carried vector of `k` lanes followed by the first `n = W - k` lanes of
    a chunk: lane `t` is the carried lane `t` when `t < k`, and the chunk's lane `t - k` otherwise. -/
theorem carry_concat_apply {R W k n : Nat} (hkn : k + n = W)
    (carry : (⟨3, ![1, R, k]⟩ : Shape).Idx → α) (chunk : (⟨4, ![1, 1, R, W]⟩ : Shape).Idx → α)
    (h1 : (⟨3, ![1, R, k]⟩ : Shape).ShapeCasts ⟨2, ![R, k]⟩)
    (h2 : (⟨4, ![1, 1, R, W]⟩ : Shape).ShapeCasts ⟨2, ![R, W]⟩)
    (h3 : (⟨2, ![R, W]⟩ : Shape).Slices ![0, 0] ⟨2, ![R, n]⟩)
    (h4 : Shape.Concatenates [(⟨2, ![R, k]⟩ : Shape), ⟨2, ![R, n]⟩] ⟨2, ![R, W]⟩ 1)
    (r : Fin R) (t : Fin W) :
    concatenate ⟨2, ![R, W]⟩ 1 [⟨⟨2, ![R, k]⟩, shapeCast ⟨2, ![R, k]⟩ carry h1⟩,
        ⟨⟨2, ![R, n]⟩, extractStridedSlice ⟨2, ![R, n]⟩ ![0, 0] (shapeCast ⟨2, ![R, W]⟩ chunk h2) h3⟩] h4 (ix2 r t)
      = if h : t.val < k then carry (ix3 (0 : Fin 1) r ⟨t.val, h⟩)
        else chunk (ix4 (0 : Fin 1) (0 : Fin 1) r ⟨t.val - k, by have := t.isLt; omega⟩) := by
  have ht : t.val < W := t.isLt
  by_cases h : t.val < k
  · rw [dif_pos h]
    refine (concatenate_pair_apply_left (s₁ := ⟨2, ![R, k]⟩) (s₂ := ⟨2, ![R, n]⟩) (1 : Fin 2) _ _ h4 (ix2 r t) rfl (ix2 r (⟨t.val, h⟩ : Fin k)) (fun b => match b with
      | ⟨0, _⟩ => rfl
      | ⟨1, _⟩ => rfl)).trans ?_
    refine shapeCast_apply carry h1 _ (ix3 (0 : Fin 1) r ⟨t.val, h⟩) ?_
    rw [Shape.rowMajor_val_three, Shape.rowMajor_val_two]
    show ((0 : ℕ) * R + r.val) * k + t.val = r.val * k + t.val
    rw [Nat.zero_mul, Nat.zero_add]
  · rw [dif_neg h]
    have hn : t.val - k < n := by omega
    refine (concatenate_pair_apply_right (s₁ := ⟨2, ![R, k]⟩) (s₂ := ⟨2, ![R, n]⟩) (1 : Fin 2) _ _ h4 (ix2 r t) rfl rfl (ix2 r (⟨t.val - k, hn⟩ : Fin n))
      (fun b hb => match b, hb with
        | ⟨0, _⟩, _ => rfl
        | ⟨1, _⟩, hb => absurd (Fin.ext rfl) hb)
      (by show (t.val - k) + k = t.val; omega)).trans ?_
    refine (extractStridedSlice_apply _ _ h3 _ (ix2 r (⟨t.val - k, by omega⟩ : Fin W)) (fun a => match a with
      | ⟨0, _⟩ => by show r.val = 0 + r.val; omega
      | ⟨1, _⟩ => by show t.val - k = 0 + (t.val - k); omega)).trans ?_
    refine shapeCast_apply chunk h2 _ (ix4 (0 : Fin 1) (0 : Fin 1) r ⟨t.val - k, by omega⟩) ?_
    rw [Shape.rowMajor_val_four, Shape.rowMajor_val_two]
    show (((0 : ℕ) * 1 + 0) * R + r.val) * W + (t.val - k) = r.val * W + (t.val - k)
    simp only [Nat.zero_mul, Nat.zero_add]

/-- HOST SPELLING, cut back. The padded array of `pad_front_apply` cut to its first `T` entries: entry `t` is the
    operand's entry `t - s` from `s` on, and the padding value before. -/
theorem pad_front_slice_apply {B R T M : Nat} (s : Nat) (lo : Fin 3 → Nat) (hlo : lo = ![0, 0, s])
    (x : (⟨3, ![B, R, T]⟩ : Shape).Idx → α) {u : Shape} (v : u.Idx → α)
    (hp : (⟨3, ![B, R, T]⟩ : Shape).Pads lo ![0, 0, 0] ![0, 0, 0] ⟨3, ![B, R, M]⟩) (hu : 0 < u.numel)
    (hsl : (⟨3, ![B, R, M]⟩ : Shape).Slices ![0, 0, 0] ⟨3, ![B, R, T]⟩) (b : Fin B) (r : Fin R) (t : Fin T) :
    extractStridedSlice ⟨3, ![B, R, T]⟩ ![0, 0, 0] (pad ⟨3, ![B, R, M]⟩ lo ![0, 0, 0] ![0, 0, 0] x v hp hu) hsl (ix3 b r t)
      = if h : s ≤ t.val then x (ix3 b r ⟨t.val - s, by have := t.isLt; omega⟩) else v (Shape.Idx.first hu) := by
  have ht : t.val < T := t.isLt
  have hm : t.val < M := by
    have e : (0 : Nat) + T ≤ M := hsl.2 (2 : Fin 3)
    omega
  refine (extractStridedSlice_apply _ _ hsl (ix3 b r t) (ix3 b r (⟨t.val, hm⟩ : Fin M)) (fun a => match a with
      | ⟨0, _⟩ => by show b.val = 0 + b.val; omega
      | ⟨1, _⟩ => by show r.val = 0 + r.val; omega
      | ⟨2, _⟩ => by show t.val = 0 + t.val; omega)).trans ?_
  rw [pad_front_apply s lo hlo]
  by_cases h : s ≤ t.val
  · rw [dif_pos h, dif_pos ⟨h, by show t.val - s < T; omega⟩]
  · rw [dif_neg h, dif_neg (fun hh => h hh.1)]

end DelayLine

end
-- ==== Proof.BodyValue.lean ====
/-
  What one run of the kernel body leaves, as values.

  A tile is 3200 time steps of all four channel groups of one batch: `x : [1, 4, 128, 3200]`. The carried buffer
  `s : [3, 128, 128]` has one row per delayed group; only its last three lanes are ever meaningful: row `k - 1`, lanes
  125..127, hold the previous tile's last three time steps of group `k`.

  * The output tile at `(r, t)` is group 0 plus, for `k = 1, 2, 3` in order, group `k` delayed by `k` steps INSIDE the
    tile: from lane `k` on it is the tile's own `x[0, k, r, t - k]`; its first `k` lanes come from the carried buffer,
    `s[k - 1, r, 128 - k + t]` (`tileOut`). At the first tile of a batch the body first fills the carried buffer with
    zeros, so there the carried lanes read `0`.
  * After the body, whatever the case, row `k - 1`, lane `125 + j` of the carried buffer holds `x[0, k, r, 3197 + j]`:
    this tile's last three steps of group `k` (`carried_*_tail`).
-/
import proofs.«177468_j19490561590070_2_alg».proof.Proof.Gen.KernelIdeal.Frame
import proofs.«177468_j19490561590070_2_alg».proof.Proof.LibDelayLine
import Idealize.ShloMosaic.Lib.Pipeline.Value
import Idealize.ShloMosaic.Lib.Pipeline.CanonAppend
import Idealize.ShloMosaic.Lib.Tactic

noncomputable section

namespace Cert.KernelIdeal.Body

open Cert.KernelIdeal Cert.KernelIdeal.Gen Idealize.ShloMosaic Idealize.ShloMosaic.TcCoe Idealize.SL.Sem
open Idealize.ShloMosaic.ValueIdx DelayLine

/-! ## The tile's value -/

/-- Group `k` delayed by `k` steps inside one tile: its first `k` lanes from the carried buffer's row `k - 1`, lanes
    `128 - k ..`, the rest the tile's own group `k`, `k` lanes earlier. -/
def tileDelayed (x : Vec Ideal S1x4x128x3200 .f32) (s : Vec Ideal S3x128x128 .f32) (k : Nat) (hk : k < 4)
    (r : Fin 128) (t : Fin 3200) : EReal :=
  if h : t.val < k then s (ix3 (⟨k - 1, by omega⟩ : Fin 3) r (⟨128 - k + t.val, by omega⟩ : Fin 128))
  else x (ix4 (0 : Fin 1) (⟨k, hk⟩ : Fin 4) r (⟨t.val - k, by have := t.isLt; omega⟩ : Fin 3200))

/-- The output tile: group 0 plus the delayed groups 1, 2, 3, in that order. -/
def tileOut (x : Vec Ideal S1x4x128x3200 .f32) (s : Vec Ideal S3x128x128 .f32) (r : Fin 128) (t : Fin 3200) : EReal :=
  x (ix4 (0 : Fin 1) (⟨0, by decide⟩ : Fin 4) r t) + tileDelayed x s 1 (by decide) r t + tileDelayed x s 2 (by decide) r t
    + tileDelayed x s 3 (by decide) r t

/-- What the carried buffer's last lanes hold after the body, as a function of the buffer's index: row `q`, lane `l`
    holds the tile's group `q + 1` at time `3072 + l` (lanes 125..127 are times 3197..3199). -/
def tailOf (x : Vec Ideal S1x4x128x3200 .f32) : S3x128x128.Idx → EReal := fun y =>
  x (ix4 (0 : Fin 1) (⟨(y 0).val + 1, by have : (y 0).val < 3 := (y 0).isLt; omega⟩ : Fin 4) (y 1)
    (⟨3072 + (y 2).val, by have : (y 2).val < 128 := (y 2).isLt; omega⟩ : Fin 3200))

/-! ## Loads read at an index -/

theorem hz3 : (![0, 0, 0] : Fin 3 → Nat) = fun _ => 0 := funext fun a => by fin_cases a <;> rfl

/-- A load from the tile through a unit-stride rectangle one batch and one group thick, at group `k` and time offset
    `o`, read at `(0, 0, r, j)`, is the tile at `(0, k, r, o + j)`. -/
theorem ld_tile (X : Vec Ideal S1x4x128x3200 .f32) (k : Nat) (hk : k < 4) (o n : Nat) (off : Fin 4 → Nat)
    (hoff : off = ![0, k, 0, o]) (inb : ∀ a, off a + (![1, 1, 128, n] : Fin 4 → Nat) a ≤ S1x4x128x3200.size a)
    (r : Fin 128) (j : Fin n) (hj : o + j.val < 3200) :
    View.ld X (Rect.unit (s := S1x4x128x3200) off ![1, 1, 128, n] inb) (ix4 (0 : Fin 1) (0 : Fin 1) r j)
      = X (ix4 (0 : Fin 1) (⟨k, hk⟩ : Fin 4) r (⟨o + j.val, hj⟩ : Fin 3200)) := by
  subst hoff
  exact congrArg X (funext fun a => Fin.ext (match a with
    | ⟨0, _⟩ => by show 0 + 1 * 0 = 0; rfl
    | ⟨1, _⟩ => by show k + 1 * 0 = k; omega
    | ⟨2, _⟩ => by show 0 + 1 * r.val = r.val; omega
    | ⟨3, _⟩ => by show o + 1 * j.val = o + j.val; omega))

/-- A load from the carried buffer through a unit-stride rectangle one row thick, at row `q` and lane offset `o`, read
    at `(0, r, j)`, is the buffer at `(q, r, o + j)`. -/
theorem ld_carried (S : Vec Ideal S3x128x128 .f32) (q : Nat) (hq : q < 3) (o n : Nat) (off : Fin 3 → Nat)
    (hoff : off = ![q, 0, o]) (inb : ∀ a, off a + (![1, 128, n] : Fin 3 → Nat) a ≤ S3x128x128.size a)
    (r : Fin 128) (j : Fin n) (hj : o + j.val < 128) :
    View.ld S (Rect.unit (s := S3x128x128) off ![1, 128, n] inb) (ix3 (0 : Fin 1) r j)
      = S (ix3 (⟨q, hq⟩ : Fin 3) r (⟨o + j.val, hj⟩ : Fin 128)) := by
  subst hoff
  exact congrArg S (funext fun a => Fin.ext (match a with
    | ⟨0, _⟩ => by show q + 1 * 0 = q; omega
    | ⟨1, _⟩ => by show 0 + 1 * r.val = r.val; omega
    | ⟨2, _⟩ => by show o + 1 * j.val = o + j.val; omega))

/-! ## The output store's payload at an index -/

/-- The stored tile at `(0, r, t)`, over the body's loads: the group-0 load plus three delayed groups, each a carried
    load's lanes followed by the group's load, in order. -/
theorem pay_out_apply (v3 v5 v17 v29 : Vec Ideal S1x1x128x3200 .f32) (v7 : Vec Ideal S1x128x1 .f32)
    (v19 : Vec Ideal S1x128x2 .f32) (v31 : Vec Ideal S1x128x3 .f32) (r : Fin 128) (t : Fin 3200) :
    k0_pay3 (k0_pay6 v3 v5 v7 v17 v19) v29 v31 (ix3 (0 : Fin 1) r t)
      = v3 (ix4 (0 : Fin 1) (0 : Fin 1) r t)
        + (if h : t.val < 1 then v7 (ix3 (0 : Fin 1) r ⟨t.val, h⟩)
            else v5 (ix4 (0 : Fin 1) (0 : Fin 1) r ⟨t.val - 1, by have := t.isLt; omega⟩))
        + (if h : t.val < 2 then v19 (ix3 (0 : Fin 1) r ⟨t.val, h⟩)
            else v17 (ix4 (0 : Fin 1) (0 : Fin 1) r ⟨t.val - 2, by have := t.isLt; omega⟩))
        + (if h : t.val < 3 then v31 (ix3 (0 : Fin 1) r ⟨t.val, h⟩)
            else v29 (ix4 (0 : Fin 1) (0 : Fin 1) r ⟨t.val - 3, by have := t.isLt; omega⟩)) := by
  unfold k0_pay3 k0_pay6
  refine (shapeCast_apply _ shapeCasts_S128x3200_S1x128x3200 (ix3 (0 : Fin 1) r t) (ix2 r t) (by
    rw [Shape.rowMajor_val_two, Shape.rowMajor_val_three]
    show r.val * 3200 + t.val = ((0 : ℕ) * 128 + r.val) * 3200 + t.val
    omega)).trans ?_
  refine congrArg₂ (· + ·) (congrArg₂ (· + ·) (congrArg₂ (· + ·) ?_ ?_) ?_) ?_
  · refine shapeCast_apply v3 _ (ix2 r t) (ix4 (0 : Fin 1) (0 : Fin 1) r t) ?_
    rw [Shape.rowMajor_val_four, Shape.rowMajor_val_two]
    show (((0 : ℕ) * 1 + 0) * 128 + r.val) * 3200 + t.val = r.val * 3200 + t.val
    omega
  · exact carry_concat_apply (R := 128) (W := 3200) (k := 1) (n := 3199) rfl v7 v5 _ _ _ _ r t
  · exact carry_concat_apply (R := 128) (W := 3200) (k := 2) (n := 3198) rfl v19 v17 _ _ _ _ r t
  · exact carry_concat_apply (R := 128) (W := 3200) (k := 3) (n := 3197) rfl v31 v29 _ _ _ _ r t

/-! ## The output tile, case by case -/

/-- The group-0 load at `(0, 0, r, t)`. -/
theorem ld_group0 (x0 : Vec Ideal S1x4x128x3200 .f32) (inb : ∀ a, (![0, 0, 0, 0] : Fin 4 → Nat) a + (![1, 1, 128, 3200] : Fin 4 → Nat) a ≤ S1x4x128x3200.size a)
    (r : Fin 128) (t : Fin 3200) :
    View.ld x0 (Rect.unit (s := S1x4x128x3200) ![0, 0, 0, 0] ![1, 1, 128, 3200] inb) (ix4 (0 : Fin 1) (0 : Fin 1) r t)
      = x0 (ix4 (0 : Fin 1) (⟨0, by decide⟩ : Fin 4) r t) :=
  (ld_tile x0 0 (by decide) 0 3200 _ rfl inb r t (by have := t.isLt; omega)).trans
    (congrArg x0 (ix4_ext rfl rfl rfl (by show 0 + t.val = t.val; omega)))

/-- The group-`k` load, `k` lanes earlier: lane `t - k` of the load is the tile's group `k` at time `t - k`. -/
theorem ld_groupk (x0 : Vec Ideal S1x4x128x3200 .f32) (k : Nat) (hk : k < 4) (off : Fin 4 → Nat) (hoff : off = ![0, k, 0, 0])
    (inb : ∀ a, off a + (![1, 1, 128, 3200] : Fin 4 → Nat) a ≤ S1x4x128x3200.size a)
    (r : Fin 128) (t : Fin 3200) (h : ¬t.val < k) :
    View.ld x0 (Rect.unit (s := S1x4x128x3200) off ![1, 1, 128, 3200] inb)
        (ix4 (0 : Fin 1) (0 : Fin 1) r (⟨t.val - k, by have := t.isLt; omega⟩ : Fin 3200))
      = x0 (ix4 (0 : Fin 1) (⟨k, hk⟩ : Fin 4) r (⟨t.val - k, by have := t.isLt; omega⟩ : Fin 3200)) :=
  (ld_tile x0 k hk 0 3200 off hoff inb r _ (by show 0 + (t.val - k) < 3200; have := t.isLt; omega)).trans
    (congrArg x0 (ix4_ext rfl rfl rfl (by show 0 + (t.val - k) = t.val - k; omega)))

/-- CASE B (not the first tile of a batch): the body leaves in the output block, at `(0, r, t)`, the tile's value over
    the carried buffer as the tile before left it. -/
theorem out_B_apply (c : Dev nD) (i : grid0.Coords) (a2 : Memref sig .tc .vmem S1x4x128x3200 .f32) (h2 : a2.IsWhole)
    (a3 : Memref sig .tc .vmem S1x128x3200 .f32) (h3 : a3.IsWhole) (a4 : Memref sig .tc .vmem S3x128x128 .f32) (h4 : a4.IsWhole)
    (hc : ¬cond0_0 i) (x0 : Vec Ideal S1x4x128x3200 .f32) (xs0 : Vec Ideal S3x128x128 .f32) (r : Fin 128) (t : Fin 3200) :
    out0_B_1 c i a2 h2 a3 h3 a4 h4 hc x0 xs0 (ix3 (0 : Fin 1) r t) = tileOut x0 xs0 r t := by
  unfold out0_B_1
  rw [View.read_writes_eq_canon _ _ _ (cover0_B_1 c i a2 h2 a3 h3 a4 h4 hc x0 xs0)]
  unfold kernelRun0_B
  dsimp only
  sl_unfold_words
  rw [View.canon_unit_zero hz3, pay_out_apply]
  simp only [View.readAt_eq_ld, h2.read_unread, h4.read_unread]
  unfold tileOut tileDelayed
  refine congrArg₂ (· + ·) (congrArg₂ (· + ·) (congrArg₂ (· + ·) ?_ ?_) ?_) ?_
  · exact ld_group0 x0 _ r t
  · by_cases h : t.val < 1
    · rw [dif_pos h, dif_pos h]
      exact (ld_carried xs0 0 (by decide) 127 1 _ rfl _ r ⟨t.val, h⟩ (by show 127 + t.val < 128; omega)).trans
        (congrArg xs0 (ix3_ext rfl rfl (by show 127 + t.val = 128 - 1 + t.val; omega)))
    · rw [dif_neg h, dif_neg h]
      exact ld_groupk x0 1 (by decide) _ rfl _ r t h
  · by_cases h : t.val < 2
    · rw [dif_pos h, dif_pos h]
      exact (ld_carried xs0 1 (by decide) 126 2 _ rfl _ r ⟨t.val, h⟩ (by show 126 + t.val < 128; omega)).trans
        (congrArg xs0 (ix3_ext rfl rfl (by show 126 + t.val = 128 - 2 + t.val; omega)))
    · rw [dif_neg h, dif_neg h]
      exact ld_groupk x0 2 (by decide) _ rfl _ r t h
  · by_cases h : t.val < 3
    · rw [dif_pos h, dif_pos h]
      exact (ld_carried xs0 2 (by decide) 125 3 _ rfl _ r ⟨t.val, h⟩ (by show 125 + t.val < 128; omega)).trans
        (congrArg xs0 (ix3_ext rfl rfl (by show 125 + t.val = 128 - 3 + t.val; omega)))
    · rw [dif_neg h, dif_neg h]
      exact ld_groupk x0 3 (by decide) _ rfl _ r t h

/-- The fill stored at a batch's first tile is zero at every index. -/
theorem fill_apply (y : S3x128x128.Idx) : k0_pay4 (F := Ideal) y = 0 := by
  show shapeCast S3x128x128 (broadcast S3x128x128 (Scalar.ofBits (F := Ideal) .f32 0x00000000#32))
    shapeCasts_S3x128x128_S3x128x128 y = 0
  rw [shapeCast_self]
  exact Ideal.ofBits_zero_f32

/-- A store one row thick leaves the other rows as the earlier stores left them. -/
theorem canon_cons_other_row {off sz : Fin 3 → Nat} {inb : ∀ a, off a + sz a ≤ S3x128x128.size a}
    (w : (Rect.unit (s := S3x128x128) off sz inb).shape.Idx → Elt Ideal .f32)
    (L : List (View.Piece (Elt Ideal) S3x128x128 .f32)) (y : S3x128x128.Idx)
    (h : (y 0).val < off 0 ∨ off 0 + sz 0 ≤ (y 0).val) :
    View.canon ((⟨Rect.unit off sz inb, w⟩ : View.Piece (Elt Ideal) S3x128x128 .f32) :: L) y = View.canon L y :=
  View.canon_cons_of_not_mem _ _ (fun hm => by
    have hm' : y ∈ (Rect.unit (s := S3x128x128) off sz inb).set := hm
    have h0 : off 0 ≤ (y 0).val ∧ (y 0).val < off 0 + sz 0 := (Rect.mem_set_unit.mp hm') (0 : Fin 3)
    omega)

/-- CASE A (the first tile of a batch): the body fills the carried buffer with zeros first, so the output block at
    `(0, r, t)` is the tile's value over a zero carried buffer. -/
theorem out_A_apply (c : Dev nD) (i : grid0.Coords) (a2 : Memref sig .tc .vmem S1x4x128x3200 .f32) (h2 : a2.IsWhole)
    (a3 : Memref sig .tc .vmem S1x128x3200 .f32) (h3 : a3.IsWhole) (a4 : Memref sig .tc .vmem S3x128x128 .f32) (h4 : a4.IsWhole)
    (hc : cond0_0 i) (x0 : Vec Ideal S1x4x128x3200 .f32) (r : Fin 128) (t : Fin 3200) :
    out0_A_1 c i a2 h2 a3 h3 a4 h4 hc x0 (ix3 (0 : Fin 1) r t) = tileOut x0 (fun _ => 0) r t := by
  unfold out0_A_1
  rw [View.read_writes_eq_canon _ _ _ (cover0_A_1 c i a2 h2 a3 h3 a4 h4 hc x0)]
  unfold kernelRun0_A
  dsimp only
  sl_unfold_words
  rw [View.canon_unit_zero hz3, pay_out_apply]
  simp only [View.readAt_eq_ld, h2.read_unread, View.readCov_eq_canon']
  unfold tileOut tileDelayed
  refine congrArg₂ (· + ·) (congrArg₂ (· + ·) (congrArg₂ (· + ·) ?_ ?_) ?_) ?_
  · exact ld_group0 x0 _ r t
  · by_cases h : t.val < 1
    · rw [dif_pos h, dif_pos h, View.canon_unit_zero hz3]
      exact fill_apply _
    · rw [dif_neg h, dif_neg h]
      exact ld_groupk x0 1 (by decide) _ rfl _ r t h
  · by_cases h : t.val < 2
    · rw [dif_pos h, dif_pos h, canon_cons_other_row _ _ _ (Or.inr (by show (0 : ℕ) + 1 ≤ 1 + 1 * 0; omega)),
        View.canon_unit_zero hz3]
      exact fill_apply _
    · rw [dif_neg h, dif_neg h]
      exact ld_groupk x0 2 (by decide) _ rfl _ r t h
  · by_cases h : t.val < 3
    · rw [dif_pos h, dif_pos h, canon_cons_other_row _ _ _ (Or.inr (by show (1 : ℕ) + 1 ≤ 2 + 1 * 0; omega)),
        canon_cons_other_row _ _ _ (Or.inr (by show (0 : ℕ) + 1 ≤ 2 + 1 * 0; omega)), View.canon_unit_zero hz3]
      exact fill_apply _
    · rw [dif_neg h, dif_neg h]
      exact ld_groupk x0 3 (by decide) _ rfl _ r t h

/-! ## The carried buffer after the body -/

/-- The two re-layouts of a stored tail keep the values: `[1, 1, 128, 3] → [128, 3] → [1, 128, 3]`. -/
theorem tail_casts (v : Vec Ideal S1x1x128x3 .f32) (h1 : S1x1x128x3.ShapeCasts S128x3) (h2 : S128x3.ShapeCasts S1x128x3)
    (y : S1x128x3.Idx) :
    shapeCast S1x128x3 (shapeCast S128x3 v h1) h2 y = v (ix4 (0 : Fin 1) (0 : Fin 1) (y 1) (y 2)) := by
  have h0 : (y 0).val = 0 := by have : (y 0).val < 1 := (y 0).isLt; omega
  refine (shapeCast_apply _ h2 y (ix2 (n0 := 128) (n1 := 3) (y 1) (y 2)) ?_).trans (shapeCast_apply v h1 _ _ ?_)
  · rw [Shape.rowMajor_val_two, Shape.rowMajor_val_three]
    show (y 1).val * 3 + (y 2).val = ((y 0).val * 128 + (y 1).val) * 3 + (y 2).val
    rw [h0]; omega
  · rw [Shape.rowMajor_val_four, Shape.rowMajor_val_two]
    show (((0 : ℕ) * 1 + 0) * 128 + (y 1).val) * 3 + (y 2).val = (y 1).val * 3 + (y 2).val
    omega

/-- The tile's last three steps of group `q + 1`, stored into row `q`, lanes 125..127, are `tailOf` there. -/
theorem tail_piece (x0 : Vec Ideal S1x4x128x3200 .f32) (q : Nat) (hq : q < 3) (off4 : Fin 4 → Nat)
    (hoff4 : off4 = ![0, q + 1, 0, 3197])
    (inb4 : ∀ a, off4 a + (![1, 1, 128, 3] : Fin 4 → Nat) a ≤ S1x4x128x3200.size a)
    (off3 : Fin 3 → Nat) (hoff3 : off3 = ![q, 0, 125])
    (inb3 : ∀ a, off3 a + (![1, 128, 3] : Fin 3 → Nat) a ≤ S3x128x128.size a)
    (y : (Rect.unit (s := S3x128x128) off3 ![1, 128, 3] inb3).shape.Idx) :
    View.ld x0 (Rect.unit (s := S1x4x128x3200) off4 ![1, 1, 128, 3] inb4) (ix4 (0 : Fin 1) (0 : Fin 1) (y 1) (y 2))
      = tailOf x0 ((Rect.unit (s := S3x128x128) off3 ![1, 128, 3] inb3).emb y) := by
  subst hoff4; subst hoff3
  have h0 : (y 0).val = 0 := by have : (y 0).val < 1 := (y 0).isLt; omega
  have h2 : (y 2).val < 3 := (y 2).isLt
  refine (ld_tile x0 (q + 1) (by omega) 3197 3 _ rfl inb4 (y 1) (y 2) (by omega)).trans ?_
  unfold tailOf
  exact congrArg x0 (ix4_ext rfl (by show q + 1 = q + 1 * (y 0).val + 1; omega)
    (by show (y 1).val = 0 + 1 * (y 1).val; omega)
    (by show 3197 + (y 2).val = 3072 + (125 + 1 * (y 2).val); omega))

/-- The body's three tail stores, the last made first: row `q`, lanes 125..127 take the tile's last three steps of
    group `q + 1`. -/
abbrev tailStores (x0 : Vec Ideal S1x4x128x3200 .f32)
    (i2 : ∀ a, (![2, 0, 125] : Fin 3 → Nat) a + (![1, 128, 3] : Fin 3 → Nat) a ≤ S3x128x128.size a)
    (i1 : ∀ a, (![1, 0, 125] : Fin 3 → Nat) a + (![1, 128, 3] : Fin 3 → Nat) a ≤ S3x128x128.size a)
    (i0 : ∀ a, (![0, 0, 125] : Fin 3 → Nat) a + (![1, 128, 3] : Fin 3 → Nat) a ≤ S3x128x128.size a)
    (j3 : ∀ a, (![0, 3, 0, 3197] : Fin 4 → Nat) a + (![1, 1, 128, 3] : Fin 4 → Nat) a ≤ S1x4x128x3200.size a)
    (j2 : ∀ a, (![0, 2, 0, 3197] : Fin 4 → Nat) a + (![1, 1, 128, 3] : Fin 4 → Nat) a ≤ S1x4x128x3200.size a)
    (j1 : ∀ a, (![0, 1, 0, 3197] : Fin 4 → Nat) a + (![1, 1, 128, 3] : Fin 4 → Nat) a ≤ S1x4x128x3200.size a) :
    List (View.Piece (Elt Ideal) S3x128x128 .f32) :=
  [⟨Rect.unit ![2, 0, 125] ![1, 128, 3] i2, k0_pay2 (View.ld x0 (Rect.unit ![0, 3, 0, 3197] ![1, 1, 128, 3] j3))⟩,
   ⟨Rect.unit ![1, 0, 125] ![1, 128, 3] i1, k0_pay1 (View.ld x0 (Rect.unit ![0, 2, 0, 3197] ![1, 1, 128, 3] j2))⟩,
   ⟨Rect.unit ![0, 0, 125] ![1, 128, 3] i0, k0_pay5 (View.ld x0 (Rect.unit ![0, 1, 0, 3197] ![1, 1, 128, 3] j1))⟩]

/-- Each tail store's payload is `tailOf` under its rectangle. -/
theorem tail_agree (x0 : Vec Ideal S1x4x128x3200 .f32) (i2 i1 i0 j3 j2 j1) :
    ∀ p ∈ tailStores x0 i2 i1 i0 j3 j2 j1, ∀ y : p.1.shape.Idx, p.2 y = tailOf x0 (p.1.emb y) := by
  intro p hp y
  rcases List.mem_cons.mp hp with rfl | hp
  · exact (tail_casts _ _ _ y).trans (tail_piece x0 2 (by decide) _ rfl j3 _ rfl i2 y)
  rcases List.mem_cons.mp hp with rfl | hp
  · exact (tail_casts _ _ _ y).trans (tail_piece x0 1 (by decide) _ rfl j2 _ rfl i1 y)
  rcases List.mem_cons.mp hp with rfl | hp
  · exact (tail_casts _ _ _ y).trans (tail_piece x0 0 (by decide) _ rfl j1 _ rfl i0 y)
  · exact absurd hp List.not_mem_nil

/-- Every index in lanes 125..127 is under one of the three tail stores: the one of its row. -/
theorem tail_cover (x0 : Vec Ideal S1x4x128x3200 .f32) (i2 i1 i0 j3 j2 j1) (y : S3x128x128.Idx) (hy : 125 ≤ (y 2).val) :
    ∃ p ∈ tailStores x0 i2 i1 i0 j3 j2 j1, y ∈ p.1.set := by
  have h0 : (y 0).val < 3 := (y 0).isLt
  have h1 : (y 1).val < 128 := (y 1).isLt
  have h2 : (y 2).val < 128 := (y 2).isLt
  have mem : ∀ (q : Nat) (off : Fin 3 → Nat) (hoff : off = ![q, 0, 125])
      (inb : ∀ a, off a + (![1, 128, 3] : Fin 3 → Nat) a ≤ S3x128x128.size a), (y 0).val = q →
      y ∈ (Rect.unit (s := S3x128x128) off ![1, 128, 3] inb).set := by
    intro q off hoff inb hq
    subst hoff
    refine Rect.mem_set_unit.mpr fun a => ?_
    match a with
    | ⟨0, _⟩ => show q ≤ (y 0).val ∧ (y 0).val < q + 1; omega
    | ⟨1, _⟩ => show 0 ≤ (y 1).val ∧ (y 1).val < 0 + 128; omega
    | ⟨2, _⟩ => show 125 ≤ (y 2).val ∧ (y 2).val < 125 + 3; omega
  rcases (by omega : (y 0).val = 2 ∨ (y 0).val = 1 ∨ (y 0).val = 0) with h | h | h
  · exact ⟨_, List.Mem.head _, mem 2 _ rfl i2 h⟩
  · exact ⟨_, List.Mem.tail _ (List.Mem.head _), mem 1 _ rfl i1 h⟩
  · exact ⟨_, List.Mem.tail _ (List.Mem.tail _ (List.Mem.head _)), mem 0 _ rfl i0 h⟩

/-- `tailOf` at row `q`, lane `125 + j`: the tile's group `q + 1` at time `3197 + j`. -/
theorem tailOf_apply (x0 : Vec Ideal S1x4x128x3200 .f32) (q : Fin 3) (r : Fin 128) (j : Fin 3) :
    tailOf x0 (ix3 q r (⟨125 + j.val, by have := j.isLt; omega⟩ : Fin 128))
      = x0 (ix4 (0 : Fin 1) (⟨q.val + 1, by have := q.isLt; omega⟩ : Fin 4) r
          (⟨3197 + j.val, by have := j.isLt; omega⟩ : Fin 3200)) := by
  unfold tailOf
  exact congrArg x0 (ix4_ext rfl rfl rfl (by show 3072 + (125 + j.val) = 3197 + j.val; omega))

/-- CASE B: after the body, row `q`, lane `125 + j` of the carried buffer holds this tile's group `q + 1` at time
    `3197 + j`, whatever the buffer held before. -/
theorem carried_B_tail (c : Dev nD) (i : grid0.Coords) (a2 : Memref sig .tc .vmem S1x4x128x3200 .f32) (h2 : a2.IsWhole)
    (a3 : Memref sig .tc .vmem S1x128x3200 .f32) (h3 : a3.IsWhole) (a4 : Memref sig .tc .vmem S3x128x128 .f32) (h4 : a4.IsWhole)
    (hc : ¬cond0_0 i) (x0 : Vec Ideal S1x4x128x3200 .f32) (xs0 : Vec Ideal S3x128x128 .f32)
    (q : Fin 3) (r : Fin 128) (j : Fin 3) :
    sout0_B_0 c i a2 h2 a3 h3 a4 h4 hc x0 xs0 (ix3 q r (⟨125 + j.val, by have := j.isLt; omega⟩ : Fin 128))
      = x0 (ix4 (0 : Fin 1) (⟨q.val + 1, by have := q.isLt; omega⟩ : Fin 4) r
          (⟨3197 + j.val, by have := j.isLt; omega⟩ : Fin 3200)) := by
  unfold sout0_B_0 kernelRun0_B
  dsimp only
  sl_unfold_words
  simp only [View.readAt_eq_ld, h2.read_unread]
  show View.read (Elt Ideal) a4.view (a4.view.writes (Elt Ideal) (h4.unread xs0) (tailStores x0 _ _ _ _ _ _)) _ = _
  rw [View.read_writes_apply_eq_canon _ _ _ _ (tail_cover x0 _ _ _ _ _ _ _ (by show 125 ≤ 125 + j.val; omega))]
  exact (View.canon_apply_of_pieces (tailOf x0) _ (tail_agree x0 _ _ _ _ _ _) _
    (tail_cover x0 _ _ _ _ _ _ _ (by show 125 ≤ 125 + j.val; omega))).trans (tailOf_apply x0 q r j)

/-- CASE A: the same after the first tile of a batch, where the three tail stores land on the zero fill. -/
theorem carried_A_tail (c : Dev nD) (i : grid0.Coords) (a2 : Memref sig .tc .vmem S1x4x128x3200 .f32) (h2 : a2.IsWhole)
    (a3 : Memref sig .tc .vmem S1x128x3200 .f32) (h3 : a3.IsWhole) (a4 : Memref sig .tc .vmem S3x128x128 .f32) (h4 : a4.IsWhole)
    (hc : cond0_0 i) (x0 : Vec Ideal S1x4x128x3200 .f32) (q : Fin 3) (r : Fin 128) (j : Fin 3) :
    sout0_A_0 c i a2 h2 a3 h3 a4 h4 hc x0 (ix3 q r (⟨125 + j.val, by have := j.isLt; omega⟩ : Fin 128))
      = x0 (ix4 (0 : Fin 1) (⟨q.val + 1, by have := q.isLt; omega⟩ : Fin 4) r
          (⟨3197 + j.val, by have := j.isLt; omega⟩ : Fin 3200)) := by
  unfold sout0_A_0
  rw [View.read_writes_eq_canon _ _ _ (scover0_A_0 c i a2 h2 a3 h3 a4 h4 hc x0)]
  unfold kernelRun0_A
  dsimp only
  sl_unfold_words
  simp only [View.readAt_eq_ld, h2.read_unread]
  exact (View.canon_append_of_pieces (tailOf x0) [_] (tailStores x0 _ _ _ _ _ _) (tail_agree x0 _ _ _ _ _ _) _
    (tail_cover x0 _ _ _ _ _ _ _ (by show 125 ≤ 125 + j.val; omega))).trans (tailOf_apply x0 q r j)

end Cert.KernelIdeal.Body

end
-- ==== Proof.OverlapSpec.lean ====
/-
  The overlap-add of four channel groups, as one function of the input array.

  The input, viewed as `X : [8, 4, 128, 16000]` (batch, group, channel, time), has four groups of 128 channels. Group `k`
  is delayed by `k` time steps — `delayed X k` at time `t` is `X[b, k, r, t - k]` from time `k` on and `0` before — and
  the result at `(b, r, t)` is group 0 plus the delayed groups 1, 2, 3, added in that order.
-/
import Idealize.ShloMosaic.PureOps.Ideal
import Idealize.ShloMosaic.Lib.ValueIdx

noncomputable section

namespace OverlapAdd

open Idealize.ShloMosaic Idealize.ShloMosaic.ValueIdx

/-- The input's four-axis view: batch, group, channel, time. -/
abbrev SX4 : Shape := ⟨4, ![8, 4, 128, 16000]⟩
/-- The result: batch, channel, time. -/
abbrev SY : Shape := ⟨3, ![8, 128, 16000]⟩

/-- Channel group `k` delayed by `k` time steps, zero before time `k`. -/
def delayed (X : SX4.Idx → EReal) (k : Nat) (hk : k < 4) (b : Fin 8) (r : Fin 128) (t : Fin 16000) : EReal :=
  if h : k ≤ t.val then X (ix4 b (⟨k, hk⟩ : Fin 4) r ⟨t.val - k, by have := t.isLt; omega⟩) else 0

/-- Group 0 plus the delayed groups 1, 2, 3, in that order. -/
def overlapAdd (X : SX4.Idx → EReal) : SY.Idx → EReal := fun i =>
  X (ix4 (i 0) (⟨0, by decide⟩ : Fin 4) (i 1) (i 2)) + delayed X 1 (by decide) (i 0) (i 1) (i 2)
    + delayed X 2 (by decide) (i 0) (i 1) (i 2) + delayed X 3 (by decide) (i 0) (i 1) (i 2)

end OverlapAdd

end
-- ==== Proof.KernelOverlap.lean ====
/-
  From tiles to the whole array: the kernel's result is the overlap-add.

  The grid has 40 points, `t = 5 b + j`: batch `b = t / 5`, tile `j = t % 5` of 3200 time steps. Write `X` for the input
  viewed `[8, 4, 128, 16000]` (the reshape made before the region). The tile the body sees at point `t` is
  `X[b, ·, ·, 3200 j ..]`.

  * After EVERY point the carried buffer's lanes 125..127 hold that point's tile's last three time steps of groups
    1..3 — no induction is needed: each run of the body rewrites those lanes from its own tile.
  * At the first tile of a batch (`j = 0`) the delayed groups' first lanes are zero, which is what the delay gives
    before time `k`. At a later tile they come from the carried buffer, i.e. from the tile before, times
    `3200 j - k + t`: what the delay gives across the tile boundary.
  * So point `t` writes back block `t` of the overlap-add of `X`; the 40 blocks tile the result array.
-/
import proofs.«177468_j19490561590070_2_alg».proof.Proof.Gen.KernelIdeal.Value
import proofs.«177468_j19490561590070_2_alg».proof.Proof.BodyValue
import proofs.«177468_j19490561590070_2_alg».proof.Proof.OverlapSpec
import Idealize.ShloMosaic.Lib.StableHlo.Run

noncomputable section

namespace Cert.KernelIdeal.Whole

open Cert.KernelIdeal Cert.KernelIdeal.Gen Cert.KernelIdeal.Body
open Idealize.ShloMosaic Idealize.ShloMosaic.TcCoe Idealize.SL.Sem
open Idealize.ShloMosaic.Pipeline (Dat)
open Idealize.ShloMosaic.ValueIdx DelayLine OverlapAdd

variable (m : (ℓ : Loc nD τ sig) → Buf (Elt Ideal) ℓ) (ρ : Dev nD → PrngReg)

/-- The input viewed `[8, 4, 128, 16000]`, as the region finds it. -/
abbrev X4 (c : Dev nD) : SX4.Idx → EReal := V m c main_v0

/-- It is the reshape of the argument array. -/
theorem X4_eq (c : Dev nD) :
    X4 m c = shapeCast S8x4x128x16000 (m ((c : Thread nD τ).loc main_arg0)) shapeCasts_S8x512x16000_S8x4x128x16000 := by
  have e : (V m c main_v0 : S8x4x128x16000.Idx → Elt Ideal .f32)
      = shapeCast S8x4x128x16000 (m ((c : Thread nD τ).loc main_arg0)) shapeCasts_S8x512x16000_S8x4x128x16000 := by
    dsimp only [Gen.V, Gen.hostOps0]; after_results; rfl
  exact e

/-- The tile at point `t`. -/
abbrev tile (c : Dev nD) (t : Fin cfg0.N) : Vec Ideal S1x4x128x3200 .f32 := iblk m c 0 t

/-- The index maps in closed form, decided over the grid: point `t` is batch `t / 5`, tile `t % 5`. -/
theorem idx_facts : ∀ t : Fin cfg0.N,
    win0_0.index t (0 : Fin 4) = t.val / 5 ∧ win0_0.index t (1 : Fin 4) = 0 ∧ win0_0.index t (2 : Fin 4) = 0
    ∧ win0_0.index t (3 : Fin 4) = t.val % 5
    ∧ win0_1.index t (0 : Fin 3) = t.val / 5 ∧ win0_1.index t (1 : Fin 3) = 0 ∧ win0_1.index t (2 : Fin 3) = t.val % 5 :=
  (by decide +kernel : ∀ t : Fin grid0.N, _)

theorem lt40 (t : Fin cfg0.N) : t.val < 40 := lt_of_lt_of_eq t.isLt (show cfg0.N = 40 from N_0)

/-- The tile at point `t` is `X[t / 5, ·, ·, 3200 (t % 5) + ·]`. -/
theorem tile_apply (c : Dev nD) (t : Fin cfg0.N) (k : Fin 4) (r : Fin 128) (u : Fin 3200) :
    tile m c t (ix4 (0 : Fin 1) k r u)
      = X4 m c (ix4 (⟨t.val / 5, by have := lt40 t; omega⟩ : Fin 8) k r
          (⟨3200 * (t.val % 5) + u.val, by have := u.isLt; omega⟩ : Fin 16000)) := by
  obtain ⟨e0, e1, e2, e3, -, -, -⟩ := idx_facts t
  unfold tile iblk
  rw [View.read_apply]
  show V m c main_v0 _ = V m c main_v0 _
  congr 1
  funext a
  apply Fin.ext
  match a with
  | ⟨0, _⟩ => show win0_0.index t (0 : Fin 4) * 1 + 1 * 0 = t.val / 5; omega
  | ⟨1, _⟩ => show win0_0.index t (1 : Fin 4) * 4 + 1 * k.val = k.val; omega
  | ⟨2, _⟩ => show win0_0.index t (2 : Fin 4) * 128 + 1 * r.val = r.val; omega
  | ⟨3, _⟩ => show win0_0.index t (3 : Fin 4) * 3200 + 1 * u.val = 3200 * (t.val % 5) + u.val; omega

/-! ## What each point leaves -/

/-- After any point, row `q`, lane `125 + j` of the carried buffer holds that point's tile's group `q + 1` at its time
    `3197 + j`. -/
theorem carried_tail (c : Dev nD) (t : Fin cfg0.N) (q : Fin 3) (r : Fin 128) (j : Fin 3) :
    (outsAt0 m c t.val t.isLt).2 (ix3 q r (⟨125 + j.val, by have := j.isLt; omega⟩ : Fin 128))
      = tile m c t (ix4 (0 : Fin 1) (⟨q.val + 1, by have := q.isLt; omega⟩ : Fin 4) r
          (⟨3197 + j.val, by have := j.isLt; omega⟩ : Fin 3200)) := by
  by_cases h0 : t.val % 5 = 0
  · rw [outsAt0_A m c t h0]
    dsimp only
    exact carried_A_tail c (grid0.coords t) (ms0_0 t) (hs0_0 t) (ms0_1 t) (hs0_1 t) scM0_0 (Memref.isWhole_whole _)
      ((hcond0_0 t).mpr h0) (iblk m c 0 t) q r j
  · rw [outsAt0_B m c t h0]
    dsimp only
    exact carried_B_tail c (grid0.coords t) (ms0_0 t) (hs0_0 t) (ms0_1 t) (hs0_1 t) scM0_0 (Memref.isWhole_whole _)
      (fun h => h0 ((hcond0_0 t).mp h)) (iblk m c 0 t)
      (outsAt0 m c (t.val - 1) (Nat.lt_of_le_of_lt (Nat.sub_le _ _) t.isLt)).2 q r j

/-- At a batch's first tile the delayed group, read over a zero carried buffer, is the delay of `X`: zero before time
    `k`, the tile's own earlier lane after. -/
theorem delayed_first (c : Dev nD) (t : Fin cfg0.N) (h0 : t.val % 5 = 0) (k : Nat) (hk : k < 4) (r : Fin 128) (u : Fin 3200) :
    tileDelayed (tile m c t) (fun _ => 0) k hk r u
      = delayed (X4 m c) k hk (⟨t.val / 5, by have := lt40 t; omega⟩ : Fin 8) r
          (⟨3200 * (t.val % 5) + u.val, by have := u.isLt; omega⟩ : Fin 16000) := by
  have hu := u.isLt
  unfold tileDelayed delayed
  by_cases h : u.val < k
  · have hn : ¬k ≤ 3200 * (t.val % 5) + u.val := by omega
    rw [dif_pos h, dif_neg hn]
  · have hp : k ≤ 3200 * (t.val % 5) + u.val := by omega
    rw [dif_neg h, dif_pos hp]
    exact (tile_apply m c t ⟨k, hk⟩ r _).trans (congrArg (X4 m c) (ix4_ext rfl rfl rfl (by
      show 3200 * (t.val % 5) + (u.val - k) = 3200 * (t.val % 5) + u.val - k; omega)))

/-- At a later tile of a batch the delayed group's first `k` lanes come from the carried buffer as the tile before
    left it — that tile's last `k` time steps of the group — which is the delay of `X` across the tile boundary. -/
theorem delayed_later (c : Dev nD) (t : Fin cfg0.N) (h0 : ¬t.val % 5 = 0) (k : Nat) (hk1 : 1 ≤ k) (hk : k < 4)
    (r : Fin 128) (u : Fin 3200) :
    tileDelayed (tile m c t) (outsAt0 m c (t.val - 1) (Nat.lt_of_le_of_lt (Nat.sub_le _ _) t.isLt)).2 k hk r u
      = delayed (X4 m c) k hk (⟨t.val / 5, by have := lt40 t; omega⟩ : Fin 8) r
          (⟨3200 * (t.val % 5) + u.val, by have := u.isLt; omega⟩ : Fin 16000) := by
  have hu := u.isLt
  have ht := lt40 t
  unfold tileDelayed delayed
  have hp : k ≤ 3200 * (t.val % 5) + u.val := by omega
  rw [dif_pos hp]
  by_cases h : u.val < k
  · rw [dif_pos h]
    let t' : Fin cfg0.N := ⟨t.val - 1, Nat.lt_of_le_of_lt (Nat.sub_le _ _) t.isLt⟩
    have ht' : t'.val = t.val - 1 := rfl
    refine ((congrArg (outsAt0 m c (t.val - 1) (Nat.lt_of_le_of_lt (Nat.sub_le _ _) t.isLt)).2
      (ix3_ext (a' := (⟨k - 1, by omega⟩ : Fin 3)) (b' := r) (c' := (⟨125 + (3 - k + u.val), by omega⟩ : Fin 128)) rfl rfl
        (by show 128 - k + u.val = 125 + (3 - k + u.val); omega))).trans
      (carried_tail m c t' (⟨k - 1, by omega⟩ : Fin 3) r (⟨3 - k + u.val, by omega⟩ : Fin 3))).trans ?_
    refine (tile_apply m c t' _ r _).trans (congrArg (X4 m c) (ix4_ext ?_ ?_ rfl ?_))
    · show t'.val / 5 = t.val / 5; omega
    · show k - 1 + 1 = k; omega
    · show 3200 * (t'.val % 5) + (3197 + (3 - k + u.val)) = 3200 * (t.val % 5) + u.val - k; omega
  · rw [dif_neg h]
    exact (tile_apply m c t ⟨k, hk⟩ r _).trans (congrArg (X4 m c) (ix4_ext rfl rfl rfl (by
      show 3200 * (t.val % 5) + (u.val - k) = 3200 * (t.val % 5) + u.val - k; omega)))

/-- What point `t` leaves in the output block, at `(0, r, u)`: the overlap-add of `X` at batch `t / 5`, channel `r`,
    time `3200 (t % 5) + u`. -/
theorem out_point (c : Dev nD) (t : Fin cfg0.N) (r : Fin 128) (u : Fin 3200) :
    (outsAt0 m c t.val t.isLt).1 (ix3 (0 : Fin 1) r u)
      = overlapAdd (X4 m c) (ix3 (⟨t.val / 5, by have := lt40 t; omega⟩ : Fin 8) r
          (⟨3200 * (t.val % 5) + u.val, by have := u.isLt; omega⟩ : Fin 16000)) := by
  have hu := u.isLt
  by_cases h0 : t.val % 5 = 0
  · rw [outsAt0_A m c t h0]
    dsimp only
    refine (out_A_apply c (grid0.coords t) (ms0_0 t) (hs0_0 t) (ms0_1 t) (hs0_1 t) scM0_0 (Memref.isWhole_whole _)
      ((hcond0_0 t).mpr h0) (iblk m c 0 t) r u).trans ?_
    show tileOut (tile m c t) (fun _ => 0) r u = _
    unfold tileOut overlapAdd
    refine congrArg₂ (· + ·) (congrArg₂ (· + ·) (congrArg₂ (· + ·) ?_ ?_) ?_) ?_
    · exact tile_apply m c t _ r u
    · exact delayed_first m c t h0 1 (by decide) r u
    · exact delayed_first m c t h0 2 (by decide) r u
    · exact delayed_first m c t h0 3 (by decide) r u
  · rw [outsAt0_B m c t h0]
    dsimp only
    refine (out_B_apply c (grid0.coords t) (ms0_0 t) (hs0_0 t) (ms0_1 t) (hs0_1 t) scM0_0 (Memref.isWhole_whole _)
      (fun h => h0 ((hcond0_0 t).mp h)) (iblk m c 0 t)
      (outsAt0 m c (t.val - 1) (Nat.lt_of_le_of_lt (Nat.sub_le _ _) t.isLt)).2 r u).trans ?_
    show tileOut (tile m c t) (outsAt0 m c (t.val - 1) (Nat.lt_of_le_of_lt (Nat.sub_le _ _) t.isLt)).2 r u = _
    unfold tileOut overlapAdd
    refine congrArg₂ (· + ·) (congrArg₂ (· + ·) (congrArg₂ (· + ·) ?_ ?_) ?_) ?_
    · exact tile_apply m c t _ r u
    · exact delayed_later m c t h0 1 (by decide) (by decide) r u
    · exact delayed_later m c t h0 2 (by decide) (by decide) r u
    · exact delayed_later m c t h0 3 (by decide) (by decide) r u

/-! ## The blocks tile the array -/

/-- What point `t` writes back is block `t` of the overlap-add of `X`. -/
theorem flushed_eq (c : Dev nD) (t : Fin cfg0.N) :
    (dats m 0 c).flushed 1 t = ((cfg0.win 1).blk t).view.read (Elt Ideal) (overlapAdd (X4 m c)) := by
  rw [Value.flushed1]
  obtain ⟨-, -, -, -, e4, e5, e6⟩ := idx_facts t
  funext y
  show (outsAt0 m c t.val t.isLt).1 y = overlapAdd (X4 m c) (((cfg0.win 1).blk t).view.emb y)
  have hy0 : (y 0).val = 0 := by have : (y 0).val < 1 := (y 0).isLt; omega
  have ey : y = ix3 (0 : Fin 1) (y 1) (y 2) := by
    funext a
    match a with
    | ⟨0, _⟩ => exact Fin.ext hy0
    | ⟨1, _⟩ => rfl
    | ⟨2, _⟩ => rfl
  refine ((congrArg (outsAt0 m c t.val t.isLt).1 ey).trans (out_point m c t (y 1) (y 2))).trans
    (congrArg (overlapAdd (X4 m c)) ?_)
  funext a
  apply Fin.ext
  match a with
  | ⟨0, _⟩ => show t.val / 5 = win0_1.index t (0 : Fin 3) * 1 + 1 * (y 0).val; omega
  | ⟨1, _⟩ => show (y 1).val = win0_1.index t (1 : Fin 3) * 128 + 1 * (y 1).val; omega
  | ⟨2, _⟩ => show 3200 * (t.val % 5) + (y 2).val = win0_1.index t (2 : Fin 3) * 3200 + 1 * (y 2).val; omega

/-- An index of the result array is in point `t`'s block iff each coordinate is in the block's range on its axis. -/
theorem mem_blk (t : Fin cfg0.N) (i : S8x128x16000.Idx) :
    i ∈ ((cfg0.win 1).blk t).view.set ↔ ∀ a : Fin 3, win0_1.index t a * S1x128x3200.size a ≤ (i a).val
      ∧ (i a).val < win0_1.index t a * S1x128x3200.size a + S1x128x3200.size a := by
  show i ∈ ((View.whole main_v1).slice (win0_1.rect t)).set ↔ _
  rw [View.set_slice_whole, Rect.mem_set_unit]
  exact Iff.rfl

/-- Every index `(b, r, T)` of the result is in the block of point `5 b + T / 3200`. -/
theorem cover (i : S8x128x16000.Idx) :
    ∃ t : Fin cfg0.N, (cfg0.win 1).flush t = true ∧ i ∈ ((cfg0.win 1).blk t).view.set := by
  have h0 : (i 0).val < 8 := (i 0).isLt
  have h1 : (i 1).val < 128 := (i 1).isLt
  have h2 : (i 2).val < 16000 := (i 2).isLt
  have hN : cfg0.N = 40 := N_0
  let t : Fin cfg0.N := ⟨5 * (i 0).val + (i 2).val / 3200, by rw [hN]; omega⟩
  have ht : t.val = 5 * (i 0).val + (i 2).val / 3200 := rfl
  obtain ⟨-, -, -, -, e4, e5, e6⟩ := idx_facts t
  refine ⟨t, flush0_1 t, (mem_blk t i).mpr fun a => ?_⟩
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 128 ≤ (i 1).val ∧ (i 1).val < win0_1.index t (1 : Fin 3) * 128 + 128
    omega
  | ⟨2, _⟩ =>
    show win0_1.index t (2 : Fin 3) * 3200 ≤ (i 2).val ∧ (i 2).val < win0_1.index t (2 : Fin 3) * 3200 + 3200
    omega

/-- The result array after the run is the overlap-add of `X`. -/
theorem final (c : Dev nD) : (dats m 0 c).arrAt 1 cfg0.N = overlapAdd (X4 m c) :=
  (dats m 0 c).arrAt_eq_of_cover 1 (overlapAdd (X4 m c)) (fun t _ => flushed_eq m c t) cover

/-- The run, read: the result array at the overlap-add of the reshaped argument, the argument unchanged. -/
theorem run : θ_run defs (onTc (τ := τ) (main (F := Ideal))) ⟨m, fun _ => 0, ρ⟩ fun r => ∀ c : Dev nD,
      r.2.mem ((c : Thread nD τ).loc main_v1)
        = overlapAdd (shapeCast S8x4x128x16000 (m ((c : Thread nD τ).loc main_arg0)) shapeCasts_S8x512x16000_S8x4x128x16000)
      ∧ r.2.mem ((c : Thread nD τ).loc main_arg0) = m ((c : Thread nD τ).loc main_arg0) :=
  (θ_run defs _ _).mono (fun r h c => ⟨(h c).1.trans ((final m c).trans (congrArg overlapAdd (X4_eq m c))), (h c).2⟩)
    (Value.run_blocks m ρ)

end Cert.KernelIdeal.Whole

end
-- ==== Proof.RefOverlap.lean ====
/-
  The array program computes the overlap-add.

  It views the input as `X : [8, 4, 128, 16000]`, takes channel group 0, and adds to it, for `k = 1, 2, 3` in order,
  group `k` padded in front (along time) with `k` copies of the integer zero converted to a float and cut back to 16000
  time steps. A group padded in front by `k` and cut back is the group delayed by `k` steps, zero before step `k`
  (the integer `0` converts to the real `0`); the sums are in the specification's order.
-/
import proofs.«177468_j19490561590070_2_alg».proof.Proof.Gen.ReferenceIdeal.Read
import proofs.«177468_j19490561590070_2_alg».proof.Proof.OverlapSpec
import proofs.«177468_j19490561590070_2_alg».proof.Proof.LibDelayLine

noncomputable section

namespace Cert.ReferenceIdeal.RefValue

open Cert.ReferenceIdeal Cert.ReferenceIdeal.Read Idealize.ShloMosaic Idealize.ShloMosaic.ValueIdx OverlapAdd DelayLine

/-- The padding value: the integer zero, converted, is the real zero. -/
theorem pad_value_zero : FloatOps.sitofp (F := Ideal) .f32 (0#32 : BitVec 32) = (0 : EReal) := by
  show (((0#32 : BitVec 32).toInt : ℝ) : EReal) = 0
  simp

/-- Group 0, undelayed. -/
theorem group0 (x : (⟨S8x512x16000, .f32⟩ : BufTy).Contents (Elt Ideal)) (b : Fin 8) (r : Fin 128) (t : Fin 16000) :
    val_main_v2 (F := Ideal) x (ix3 b r t) = val_main_v0 (F := Ideal) x (ix4 b (⟨0, by decide⟩ : Fin 4) r t) := by
  unfold val_main_v2 val_main_v1
  exact chunk_apply (⟨0, by decide⟩ : Fin 4) _ rfl _ _ _ b r t

/-- Group 1 padded in front by one step and cut back is group 1 delayed by one step. -/
theorem group1 (x : (⟨S8x512x16000, .f32⟩ : BufTy).Contents (Elt Ideal)) (b : Fin 8) (r : Fin 128) (t : Fin 16000) :
    val_main_v6 (F := Ideal) x (ix3 b r t) = delayed (val_main_v0 (F := Ideal) x) 1 (by decide) b r t := by
  unfold val_main_v6 val_main_v5 val_main_v4 val_main_v3 delayed
  rw [pad_front_slice_apply 1 _ rfl]
  by_cases h : 1 ≤ t.val
  · rw [dif_pos h, dif_pos h]
    exact chunk_apply (⟨1, by decide⟩ : Fin 4) _ rfl _ _ _ b r _
  · rw [dif_neg h, dif_neg h]
    exact pad_value_zero

/-- Group 2 padded in front by two steps and cut back is group 2 delayed by two steps. -/
theorem group2 (x : (⟨S8x512x16000, .f32⟩ : BufTy).Contents (Elt Ideal)) (b : Fin 8) (r : Fin 128) (t : Fin 16000) :
    val_main_v11 (F := Ideal) x (ix3 b r t) = delayed (val_main_v0 (F := Ideal) x) 2 (by decide) b r t := by
  unfold val_main_v11 val_main_v10 val_main_v9 val_main_v8 delayed
  rw [pad_front_slice_apply 2 _ rfl]
  by_cases h : 2 ≤ t.val
  · rw [dif_pos h, dif_pos h]
    exact chunk_apply (⟨2, by decide⟩ : Fin 4) _ rfl _ _ _ b r _
  · rw [dif_neg h, dif_neg h]
    exact pad_value_zero

/-- Group 3 padded in front by three steps and cut back is group 3 delayed by three steps. -/
theorem group3 (x : (⟨S8x512x16000, .f32⟩ : BufTy).Contents (Elt Ideal)) (b : Fin 8) (r : Fin 128) (t : Fin 16000) :
    val_main_v16 (F := Ideal) x (ix3 b r t) = delayed (val_main_v0 (F := Ideal) x) 3 (by decide) b r t := by
  unfold val_main_v16 val_main_v15 val_main_v14 val_main_v13 delayed
  rw [pad_front_slice_apply 3 _ rfl]
  by_cases h : 3 ≤ t.val
  · rw [dif_pos h, dif_pos h]
    exact chunk_apply (⟨3, by decide⟩ : Fin 4) _ rfl _ _ _ b r _
  · rw [dif_neg h, dif_neg h]
    exact pad_value_zero

/-- The array program's result is the overlap-add of the input's four-axis view. -/
theorem result_eq (x : (⟨S8x512x16000, .f32⟩ : BufTy).Contents (Elt Ideal)) :
    val_main_v17 (F := Ideal) x = overlapAdd (val_main_v0 (F := Ideal) x) := by
  funext i
  obtain ⟨b, r, t, rfl⟩ : ∃ (b : Fin 8) (r : Fin 128) (t : Fin 16000), i = ix3 b r t := ⟨i 0, i 1, i 2, eq_ix3 i⟩
  rw [val_main_v17_apply, val_main_v12_apply, val_main_v7_apply, group0, group1, group2, group3]
  rfl

end Cert.ReferenceIdeal.RefValue

end
-- ==== Proof.lean ====
/-
  Overlap-add of four channel groups: the tiled kernel against the array program.

  The input `x : [8, 512, 16000]` is viewed as `X : [8, 4, 128, 16000]` (batch, group, channel, time). Both programs
  compute, at `(b, r, t)`,

      X[b, 0, r, t] + D₁ + D₂ + D₃,     D_k = X[b, k, r, t - k] if k ≤ t, else 0,

  the sums in that order (`OverlapAdd.overlapAdd`). The array program pads group `k` in front by `k` zeros and cuts it
  back. The kernel walks each batch in five tiles of 3200 time steps; inside a tile the first `k` lanes of `D_k` come from
  a small carried buffer that holds the previous tile's last three time steps of each group and is zeroed at a batch's
  first tile. The two results are the same function of `X` term by term: no law of the extended reals is used beyond
  `0` being the value of the float word `0` and of the converted integer `0`, and the inputs' finiteness is not needed.

  The frames of the two kernel programs are the generated ones; the array program's frame is its generated run with the
  result dropped; the idealization rewrote nothing, so `preserves` is `True`.
-/
import proofs.«177468_j19490561590070_2_alg».proof.Defs
import proofs.«177468_j19490561590070_2_alg».proof.Proof.Gen.Kernel
import proofs.«177468_j19490561590070_2_alg».proof.Proof.Gen.Kernel.Skeleton
import proofs.«177468_j19490561590070_2_alg».proof.Proof.Gen.Kernel.Launch
import proofs.«177468_j19490561590070_2_alg».proof.Proof.Gen.Kernel.Points
import proofs.«177468_j19490561590070_2_alg».proof.Proof.Gen.Kernel.Frame
import proofs.«177468_j19490561590070_2_alg».proof.Proof.Gen.KernelIdeal
import proofs.«177468_j19490561590070_2_alg».proof.Proof.Gen.KernelIdeal.Skeleton
import proofs.«177468_j19490561590070_2_alg».proof.Proof.Gen.KernelIdeal.Launch
import proofs.«177468_j19490561590070_2_alg».proof.Proof.Gen.KernelIdeal.Points
import proofs.«177468_j19490561590070_2_alg».proof.Proof.Gen.KernelIdeal.Frame
import proofs.«177468_j19490561590070_2_alg».proof.Proof.Gen.KernelIdeal.Value
import proofs.«177468_j19490561590070_2_alg».proof.Proof.Gen.ReferenceIdeal
import proofs.«177468_j19490561590070_2_alg».proof.Proof.Gen.ReferenceIdeal.Run
import proofs.«177468_j19490561590070_2_alg».proof.Proof.Gen.ReferenceIdeal.Read
import proofs.«177468_j19490561590070_2_alg».proof.Proof.Gen.Pre_finite_inputs
import proofs.«177468_j19490561590070_2_alg».proof.Proof.KernelOverlap
import proofs.«177468_j19490561590070_2_alg».proof.Proof.RefOverlap
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The array program's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Over the extended reals the kernel's result array ends at the overlap-add of the reshaped argument
    (`Cert.KernelIdeal.Whole.run`), and the array program's at the same function of an argument that agrees
    (`Cert.ReferenceIdeal.RefValue.result_eq`). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq, hagree c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
